-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel

variable [Facts]

def fn {F : FTy → Type} [FloatOps F] (main_arg0 : FVec F S16x4096x256 .f32) (main_arg1 : FVec F S16x4096x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  main_v8
-- ==== Kernel.lean ====
abbrev S16x4096x256 : Shape := ⟨3, ![16, 4096, 256]⟩
abbrev S16x4096 : Shape := ⟨2, ![16, 4096]⟩
abbrev S16x256x256 : Shape := ⟨3, ![16, 256, 256]⟩
abbrev S16x256 : Shape := ⟨2, ![16, 256]⟩

abbrev nBuf : Space → Nat
  | .hbm => 3
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256, .f32⟩
  | .local _ .vmem, ⟨5, _⟩ => ⟨S16x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x256x256_S16x256x256_0_0_0 : ∀ a, (![0, 0, 0] : Fin 3 → Nat) a + S16x256x256.size a ≤ S16x256x256.size a
  h_S16x256x256 : 0 < S16x256x256.numel
  reduces_S16x256x256_S16x256 : S16x256x256.Reduces [2] S16x256
  inb_S16x256_S16x256_0_0 : ∀ a, (![0, 0] : Fin 2 → Nat) a + S16x256.size a ≤ S16x256.size a
  h_S16x256 : 0 < S16x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S16x4096x256.size a
  hwx0_0 : ∀ i : grid0.Coords, EltTy.bits .f32 = 32 ∨ (Rect.block (s := S16x4096x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S16x4096x256.size a
  hwx0_1 : ∀ i : grid0.Coords, EltTy.bits .f32 = 32 ∨ (Rect.block (s := S16x4096x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)

variable [Facts₀]

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S_, .f32⟩
  | .hbm, ⟨7, _⟩ => ⟨S16x4096x1, .f32⟩
  | .hbm, ⟨8, _⟩ => ⟨S16x4096x1, .f32⟩
  | .hbm, ⟨9, _⟩ => ⟨S16x4096x1, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x256, .f32⟩
  | .hbm, ⟨21, _⟩ => ⟨S16x4096x256, .f32⟩
  | .hbm, ⟨22, _⟩ => ⟨S16x4096x256, .f32⟩
  | .hbm, ⟨23, _⟩ => ⟨S_, .f32⟩
  | .hbm, ⟨24, _⟩ => ⟨S16x4096, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)

variable [Facts₀]

class Facts : Prop extends Facts₀ where

variable [Facts]
-- ==== Proof.Cosine.lean ====
/-
  The specification: the row-wise cosine similarity of two arrays of shape [16, 4096, 256], as ONE function of the
  two arrays, index by index.

  For a batch b and a row n,
      dot x y b n   = Σ_k x[b, n, k] · y[b, n, k]                      (k over the 256 features)
      cosine x y    = dot x y · (max (dot x x) ε · max (dot y y) ε)^(-1/2)
  where ε is the binary32 number nearest 1e-12, a positive real.  This is the form the kernel computes; the reference's
  form (normalise, then take the inner product) is joined to it by the law of the module CosineLaw.
-/
import Idealize.ShloMosaic.PureOps.Ideal
import Idealize.ShloMosaic.PureOps.Ideal.Laws
import Idealize.ShloMosaic.Lib.ValueIdx

noncomputable section

open scoped BigOperators

namespace Cert.Cosine

open Idealize.ShloMosaic Idealize.ShloMosaic.ValueIdx

/-- An array of shape [16, 4096, 256] of extended reals. -/
abbrev Arr3 : Type := (⟨3, ![16, 4096, 256]⟩ : Shape).Idx → EReal
/-- An array of shape [16, 4096] of extended reals. -/
abbrev Arr2 : Type := (⟨2, ![16, 4096]⟩ : Shape).Idx → EReal

/-- The clamp ε: the binary32 word both programs print for 1e-12. -/
def eps : EReal := Ideal.ofBits .f32 0x2B8CBCCC#32

/-- The printed word, read at the extended reals, is ε. -/
theorem ofBits_eps : Ideal.ofBits .f32 0x2B8CBCCC#32 = eps := rfl

/-- ε is a positive real: 9223372 · 2^(-63). -/
theorem eps_pos : ∃ e : ℝ, 0 < e ∧ eps = (e : EReal) := by
  refine ⟨9223372 * (2 ^ 63)⁻¹, by positivity, ?_⟩
  simp [eps, Ideal.ofBits, Ideal.ieee]

/-- The inner product of row (b, n) of x with row (b, n) of y. -/
def dot (x y : Arr3) (b : Fin 16) (n : Fin 4096) : EReal :=
  ∑ k : Fin 256, x (ix3 b n k) * y (ix3 b n k)

/-- The cosine similarity of row (b, n) of x and y, each squared norm clamped below by ε. -/
def cosineAt (x y : Arr3) (b : Fin 16) (n : Fin 4096) : EReal :=
  dot x y b n * Ideal.rsqrt (max (dot x x b n) eps * max (dot y y b n) eps)

/-- The whole result array. -/
def cosine (x y : Arr3) : Arr2 := fun i => cosineAt x y (i 0) (i 1)

theorem cosine_ix2 (x y : Arr3) (b : Fin 16) (n : Fin 4096) : cosine x y (ix2 b n) = cosineAt x y b n := rfl

end Cert.Cosine

end
-- ==== Proof.KernelValue.lean ====
/-
  The kernel's result array as the specification's cosine of the two argument arrays.

  The grid has 16 points; point t stages rows 256·t … 256·t + 255 of every batch of both arguments (a block of shape
  [16, 256, 256]) and writes back the block [16, 256] of the result at the same rows.  The body's one store holds, at
  (b, r) of the block, the lane sum of the product of the two staged blocks scaled by the reciprocal square root of the
  product of the two clamped lane sums of squares: each lane sum runs over the 256 features of row (b, 256·t + r), so
  the stored value is the cosine of that row of the arguments.  The 16 blocks tile the 4096 rows, so the array after
  the run is the cosine everywhere.
-/
import proofs.«141535_j19894288515177_2_alg».proof.Proof.Gen.KernelIdeal.Value
import proofs.«141535_j19894288515177_2_alg».proof.Proof.Cosine
import Idealize.ShloMosaic.Lib.Pipeline.Value
import Idealize.ShloMosaic.Lib.ValueIdx
import Idealize.ShloMosaic.PureOps.Ideal.Laws

noncomputable section

open scoped BigOperators

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.Cosine
open Idealize.ShloMosaic.Pipeline (Dat)

variable (m : (ℓ : Loc nD τ sig) → Buf (Elt Ideal) ℓ) (ρ : Dev nD → PrngReg)

/-! ## The body's stored value at an index of the block -/

/-- A lane sum of the product of two staged blocks, at (b, r): the sum over the 256 features. -/
theorem lane_sum (P Q : Vec Ideal S16x256x256 .f32) (b : Fin 16) (r : Fin 256) :
    multiReduction (F := Ideal) .add [2] S16x256 (mulf P Q) 0x00000000#32 reduces_S16x256x256_S16x256 (.inl rfl) rfl (ix2 b r)
      = ∑ k : Fin 256, P (ix3 b r k) * Q (ix3 b r k) := by
  refine (Ideal.multiReduction_add_single (mulf P Q) 0x00000000#32 reduces_S16x256x256_S16x256 (.inl rfl) rfl (ix2 b r)).trans ?_
  refine Finset.sum_congr rfl fun k _ => ?_
  have hk : reduces_S16x256x256_S16x256.lift (ix2 b r) k = ix3 b r k := funext fun a => Fin.ext (by
    match a with | ⟨0, _⟩ => rfl | ⟨1, _⟩ => rfl | ⟨2, _⟩ => rfl)
  rw [hk]
  rfl

/-- The block the body leaves, at (b, r): the inner product of the two staged rows scaled by the reciprocal square root
    of the product of their clamped squared norms. -/
theorem block_at (P Q : Vec Ideal S16x256x256 .f32) (y : S16x256.Idx) (b : Fin 16) (r : Fin 256)
    (hb : (y 0).val = b.val) (hr : (y 1).val = r.val) :
    E2 (F := Ideal) P Q y
      = (∑ k : Fin 256, P (ix3 b r k) * Q (ix3 b r k))
        * Ideal.rsqrt (max (∑ k : Fin 256, P (ix3 b r k) * P (ix3 b r k)) eps * max (∑ k : Fin 256, Q (ix3 b r k) * Q (ix3 b r k)) eps) := by
  obtain rfl : y = ix2 b r := funext fun a => Fin.ext (by
    match a with | ⟨0, _⟩ => exact hb | ⟨1, _⟩ => exact hr)
  have h0 : ix2_0 (ix2 b r) = ix2 b r := funext fun a => by match a with | ⟨0, _⟩ => rfl | ⟨1, _⟩ => rfl
  have h1 : ix2_1 (ix2 b r) = ix2 b r := funext fun a => by match a with | ⟨0, _⟩ => rfl | ⟨1, _⟩ => rfl
  have h2 : ix2_2 (ix2 b r) = ix2 b r := funext fun a => by match a with | ⟨0, _⟩ => rfl | ⟨1, _⟩ => rfl
  unfold E2
  rw [h0, h1, h2, lane_sum P Q b r, lane_sum P P b r, lane_sum Q Q b r]
  rfl

/-- ONE POINT'S STORED VALUE IS THE COSINE OF A ROW OF THE ARRAYS: if the staged blocks P, Q hold rows tt·256 … of the
    arrays A, B, the block the body leaves at y is the cosine of A and B at the array index i over y. -/
theorem stored_eq_cosine (A B : Arr3) (P Q : Vec Ideal S16x256x256 .f32) (y : S16x256.Idx) (i : S16x4096.Idx) (tt : Nat)
    (hP : ∀ (b : Fin 16) (r k : Fin 256) (n : Fin 4096), n.val = tt * 256 + r.val → P (ix3 b r k) = A (ix3 b n k))
    (hQ : ∀ (b : Fin 16) (r k : Fin 256) (n : Fin 4096), n.val = tt * 256 + r.val → Q (ix3 b r k) = B (ix3 b n k))
    (hi0 : (i 0).val = (y 0).val) (hi1 : (i 1).val = tt * 256 + (y 1).val) :
    E2 (F := Ideal) P Q y = cosine A B i := by
  have hy0 : (y 0).val < 16 := (y 0).isLt
  have hy1 : (y 1).val < 256 := (y 1).isLt
  have hn : (i 1).val < 4096 := (i 1).isLt
  have hi : i = ix2 (⟨(y 0).val, hy0⟩ : Fin 16) (⟨(i 1).val, hn⟩ : Fin 4096) := funext fun a => Fin.ext (by
    match a with | ⟨0, _⟩ => exact hi0 | ⟨1, _⟩ => rfl)
  rw [hi, block_at P Q y ⟨(y 0).val, hy0⟩ ⟨(y 1).val, hy1⟩ rfl rfl, cosine_ix2]
  unfold cosineAt dot
  simp only [hP _ ⟨(y 1).val, hy1⟩ _ ⟨(i 1).val, hn⟩ hi1, hQ _ ⟨(y 1).val, hy1⟩ _ ⟨(i 1).val, hn⟩ hi1]

/-! ## The blocks of the three windows -/

theorem hz3 : (![0, 0, 0] : Fin 3 → Nat) = fun _ => 0 := funext fun a => by fin_cases a <;> rfl

/-- The printed index maps, decided over the 16 grid points: each window's block index is 0 on the batch axis (and on
    the feature axis), and the point's number on the row axis. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-- The first argument's block at point t holds rows 256·t … 256·t + 255 of every batch of the argument. -/
theorem iblk0_apply (c : Dev nD) (t : Fin cfg0.N) (b : Fin 16) (r k : Fin 256) (n : Fin 4096) (hn : n.val = t.val * 256 + r.val) :
    (iblk m c 0 t : Vec Ideal S16x256x256 .f32) (ix3 b r k) = (m ((c : Thread nD τ).loc main_arg0) : Arr3) (ix3 b n k) := by
  obtain ⟨e0, e1, e2, -, -, -, -, -⟩ := idx_facts t
  unfold iblk
  rw [View.read_apply]
  show V m c main_arg0 _ = m ((c : Thread nD τ).loc main_arg0) _
  unfold V
  refine congrArg (m ((c : Thread nD τ).loc main_arg0)) ?_
  funext a
  apply Fin.ext
  match a with
  | ⟨0, _⟩ => show win0_0.index t (0 : Fin 3) * 16 + 1 * b.val = b.val; rw [e0]; omega
  | ⟨1, _⟩ => show win0_0.index t (1 : Fin 3) * 256 + 1 * r.val = n.val; rw [e1, hn]; omega
  | ⟨2, _⟩ => show win0_0.index t (2 : Fin 3) * 256 + 1 * k.val = k.val; rw [e2]; omega

/-- The second argument's block at point t holds rows 256·t … 256·t + 255 of every batch of the argument. -/
theorem iblk1_apply (c : Dev nD) (t : Fin cfg0.N) (b : Fin 16) (r k : Fin 256) (n : Fin 4096) (hn : n.val = t.val * 256 + r.val) :
    (iblk m c 1 t : Vec Ideal S16x256x256 .f32) (ix3 b r k) = (m ((c : Thread nD τ).loc main_arg1) : Arr3) (ix3 b n k) := by
  obtain ⟨-, -, -, e0, e1, e2, -, -⟩ := idx_facts t
  unfold iblk
  rw [View.read_apply]
  show V m c main_arg1 _ = m ((c : Thread nD τ).loc main_arg1) _
  unfold V
  refine congrArg (m ((c : Thread nD τ).loc main_arg1)) ?_
  funext a
  apply Fin.ext
  match a with
  | ⟨0, _⟩ => show win0_1.index t (0 : Fin 3) * 16 + 1 * b.val = b.val; rw [e0]; omega
  | ⟨1, _⟩ => show win0_1.index t (1 : Fin 3) * 256 + 1 * r.val = n.val; rw [e1, hn]; omega
  | ⟨2, _⟩ => show win0_1.index t (2 : Fin 3) * 256 + 1 * k.val = k.val; rw [e2]; omega

/-- WHAT POINT t WRITES BACK is block t of the cosine of the two argument arrays. -/
theorem flushed_eq (c : Dev nD) (t : Fin cfg0.N) :
    (dats m 0 c).flushed 2 t = ((cfg0.win 2).blk t).view.read (Elt Ideal)
      (cosine (m ((c : Thread nD τ).loc main_arg0)) (m ((c : Thread nD τ).loc main_arg1))) := by
  obtain ⟨-, -, -, -, -, -, e0, e1⟩ := idx_facts t
  show (cfg0.win 2).cut (grid0.coords t) ((dats m 0 c).after 2 t) = _
  rw [after0_2]
  unfold out0_2
  simp only [View.ld_unit_zero (S := S16x256x256) hz3]
  funext j
  refine (canon2_eq (iblk m c 0 t) (iblk m c 1 t) j).trans ?_
  refine stored_eq_cosine (m ((c : Thread nD τ).loc main_arg0)) (m ((c : Thread nD τ).loc main_arg1))
    (iblk m c 0 t) (iblk m c 1 t) j (((cfg0.win 2).blk t).view.emb j) t.val
    (fun b r k n hn => iblk0_apply m c t b r k n hn) (fun b r k n hn => iblk1_apply m c t b r k n hn) ?_ ?_
  · show win0_2.index t (0 : Fin 2) * 16 + 1 * (j 0).val = (j 0).val
    rw [e0]; omega
  · show win0_2.index t (1 : Fin 2) * 256 + 1 * (j 1).val = t.val * 256 + (j 1).val
    rw [e1]; omega

/-! ## The blocks tile the array -/

/-- An index of the result array is in point t's block iff each coordinate is in the block's range on its axis. -/
theorem mem_blk (t : Fin cfg0.N) (i : S16x4096.Idx) :
    i ∈ ((cfg0.win 2).blk t).view.set ↔ ∀ a : Fin 2, win0_2.index t a * S16x256.size a ≤ (i a).val ∧ (i a).val < win0_2.index t a * S16x256.size a + S16x256.size a := by
  show i ∈ ((View.whole main_v0).slice (win0_2.rect t)).set ↔ _
  rw [View.set_slice_whole, Rect.mem_set_unit]
  exact Iff.rfl

/-- Every index of the result array lies in the block of the point its row falls in: row n is written at point n / 256. -/
theorem cover (i : S16x4096.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hN : cfg0.N = 16 := N_0
  let t : Fin cfg0.N := ⟨(i 1).val / 256, by rw [hN]; omega⟩
  obtain ⟨-, -, -, -, -, -, e0, e1⟩ := idx_facts t
  have ht : t.val = (i 1).val / 256 := rfl
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; rw [e0]; omega
  | ⟨1, _⟩ => show win0_2.index t (1 : Fin 2) * 256 ≤ (i 1).val ∧ (i 1).val < win0_2.index t (1 : Fin 2) * 256 + 256; rw [e1, ht]; omega

/-- THE RESULT ARRAY after the run is the cosine of the two argument arrays. -/
theorem final (c : Dev nD) : (dats m 0 c).arrAt 2 cfg0.N
    = cosine (m ((c : Thread nD τ).loc main_arg0)) (m ((c : Thread nD τ).loc main_arg1)) :=
  (dats m 0 c).arrAt_eq_of_cover 2 _ (fun t _ => flushed_eq m c t) cover

/-- The kernel's run, read: the result array at the cosine of the arguments, the arguments unchanged. -/
theorem run : θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.CosineLaw.lean ====
/-
  The algebraic law that joins the two programs, over the extended reals.

  For one row of two real-valued arrays, write  sa = Σ a·a,  sb = Σ b·b,  and let ε be a positive real.  The reference
  normalises each operand first and then takes the inner product,
      Σ_k (a_k · (max sa ε)^(-1/2)) · (b_k · (max sb ε)^(-1/2)),
  while the kernel takes the raw inner product and scales it once,
      (Σ_k a_k · b_k) · (max sa ε · max sb ε)^(-1/2).
  Both clamped squared norms are positive reals, so the reciprocal square root is the real one and is multiplicative on
  them; the common factor then leaves the finite sum by distributivity.  Distributivity is where finiteness of the
  entries is used: on the extended reals it fails at the infinities.
-/
import Idealize.ShloMosaic.PureOps.Ideal

noncomputable section

open scoped BigOperators

namespace Cert.CosineLaw

open Idealize.ShloMosaic

/-- The coercion of the reals into the extended reals commutes with finite sums. -/
theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The coercion of the reals into the extended reals is monotone, so it commutes with the maximum of two reals. -/
theorem coe_max (a b : ℝ) : ((max a b : ℝ) : EReal) = max (a : EReal) (b : EReal) :=
  EReal.coe_strictMono.monotone.map_max

/-- The reciprocal square root of a positive real p, on the extended reals, is the real number 1 / √p. -/
theorem rsqrt_pos {p : ℝ} (hp : 0 < p) : Ideal.rsqrt (p : EReal) = (((Real.sqrt p)⁻¹ : ℝ) : EReal) := by
  rw [Ideal.rsqrt_coe, if_neg (not_lt.mpr hp.le), if_neg hp.ne']

/-- On positive reals the reciprocal square root is multiplicative. -/
theorem inv_sqrt_mul {p q : ℝ} (hp : 0 < p) : (Real.sqrt (p * q))⁻¹ = (Real.sqrt p)⁻¹ * (Real.sqrt q)⁻¹ := by
  rw [Real.sqrt_mul hp.le, mul_inv]

/-- THE LAW, for one row of real entries α, β and a positive real e: normalising each operand by its own clamped
    squared norm before the inner product is scaling the raw inner product by the reciprocal square root of the product
    of the two clamped squared norms.  (The reference's sums start from an initial value 0, the kernel's do not.) -/
theorem normalize_then_dot {ι : Type*} [Fintype ι] (α β : ι → ℝ) (e : ℝ) (he : 0 < e) :
    (0 : EReal) + ∑ k, ((α k : EReal) * Ideal.rsqrt (max ((0 : EReal) + ∑ j, (α j : EReal) * (α j : EReal)) (e : EReal)))
        * ((β k : EReal) * Ideal.rsqrt (max ((0 : EReal) + ∑ j, (β j : EReal) * (β j : EReal)) (e : EReal)))
      = (∑ k, (α k : EReal) * (β k : EReal))
        * Ideal.rsqrt (max (∑ j, (α j : EReal) * (α j : EReal)) (e : EReal) * max (∑ j, (β j : EReal) * (β j : EReal)) (e : EReal)) := by
  have hp : 0 < max (∑ j, α j * α j) e := lt_max_of_lt_right he
  have hq : 0 < max (∑ j, β j * β j) e := lt_max_of_lt_right he
  simp only [zero_add, ← EReal.coe_mul, ← coe_sum, ← coe_max, rsqrt_pos hp, rsqrt_pos hq,
    rsqrt_pos (mul_pos hp hq), inv_sqrt_mul hp]
  rw [EReal.coe_eq_coe_iff, Finset.sum_mul]
  refine Finset.sum_congr rfl fun k _ => ?_
  ring

end Cert.CosineLaw

end
-- ==== Proof.RefValue.lean ====
/-
  The reference, read index by index, and joined to the specification.

  The reference normalises each argument along its last axis — x · (max (Σ x·x) ε)^(-1/2), the row's factor broadcast
  back over the 256 features — and sums the product of the two normalised arrays along that axis.  Read at row (b, n)
  this is  0 + Σ_k (x[b,n,k] · rx) · (y[b,n,k] · ry)  with rx, ry the two rows' factors; on arrays of real entries the
  law of the module CosineLaw makes it the specification's cosine.
-/
import proofs.«141535_j19894288515177_2_alg».proof.Proof.Gen.ReferenceIdeal.Read
import proofs.«141535_j19894288515177_2_alg».proof.Proof.Cosine
import proofs.«141535_j19894288515177_2_alg».proof.Proof.CosineLaw
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.Cosine

/-- The reference's squared norm of row (b, n) of its first argument: the host sum starts from 0. -/
theorem sq0 (x : Arr3) (b : Fin 16) (n : Fin 4096) :
    val_main_v1 (F := Ideal) x (ix2 b n) = 0 + dot x x b n := by
  have hk : ∀ k : Fin 256, idx_main_v1 (ix2 b n) k = ix3 b n k := fun k => funext fun a => by
    match a with | ⟨0, _⟩ => rfl | ⟨1, _⟩ => rfl | ⟨2, _⟩ => rfl
  rw [val_main_v1_apply]
  simp only [hk, val_main_cst_apply, val_main_v0_apply, Ideal.ofBits_def, Ideal.ofBits_zero_f32, Ideal.mulf_def]
  rfl

/-- The reference's normalising factor of row (b, n) of its first argument, kept with a unit last axis: the reciprocal
    square root of the squared norm clamped below by ε. -/
theorem inv0 (x : Arr3) (b : Fin 16) (n : Fin 4096) :
    val_main_v5 (F := Ideal) x (ix3 b n (⟨0, Nat.one_pos⟩ : Fin 1)) = Ideal.rsqrt (max (0 + dot x x b n) eps) := by
  have h2 : idx_main_v2 (ix3 b n (⟨0, Nat.one_pos⟩ : Fin 1)) = ix2 b n := funext fun a => by
    match a with | ⟨0, _⟩ => rfl | ⟨1, _⟩ => rfl
  rw [val_main_v5_apply, val_main_v4_apply, val_main_v2_apply, val_main_v3_apply, val_main_cst_0_apply, h2, sq0]
  simp only [Ideal.hostUnary_rsqrt_def, Ideal.maximumf_def, Ideal.ofBits_def, ofBits_eps]

/-- The reference's normalised first argument at (b, n, k): the entry times its row's normalising factor. -/
theorem nrm0 (x : Arr3) (b : Fin 16) (n : Fin 4096) (k : Fin 256) :
    val_main_v7 (F := Ideal) x (ix3 b n k) = x (ix3 b n k) * Ideal.rsqrt (max (0 + dot x x b n) eps) := by
  have h6 : idx_main_v6 (ix3 b n k) = ix3 b n (⟨0, Nat.one_pos⟩ : Fin 1) := funext fun a => by
    match a with | ⟨0, _⟩ => rfl | ⟨1, _⟩ => rfl | ⟨2, _⟩ => rfl
  rw [val_main_v7_apply, val_main_v6_apply, h6, inv0]
  rfl

/-- The reference's squared norm of row (b, n) of its second argument: the host sum starts from 0. -/
theorem sq1 (x : Arr3) (b : Fin 16) (n : Fin 4096) :
    val_main_v9 (F := Ideal) x (ix2 b n) = 0 + dot x x b n := by
  have hk : ∀ k : Fin 256, idx_main_v9 (ix2 b n) k = ix3 b n k := fun k => funext fun a => by
    match a with | ⟨0, _⟩ => rfl | ⟨1, _⟩ => rfl | ⟨2, _⟩ => rfl
  rw [val_main_v9_apply]
  simp only [hk, val_main_cst_1_apply, val_main_v8_apply, Ideal.ofBits_def, Ideal.ofBits_zero_f32, Ideal.mulf_def]
  rfl

/-- The reference's normalising factor of row (b, n) of its second argument, kept with a unit last axis: the reciprocal
    square root of the squared norm clamped below by ε. -/
theorem inv1 (x : Arr3) (b : Fin 16) (n : Fin 4096) :
    val_main_v13 (F := Ideal) x (ix3 b n (⟨0, Nat.one_pos⟩ : Fin 1)) = Ideal.rsqrt (max (0 + dot x x b n) eps) := by
  have h2 : idx_main_v10 (ix3 b n (⟨0, Nat.one_pos⟩ : Fin 1)) = ix2 b n := funext fun a => by
    match a with | ⟨0, _⟩ => rfl | ⟨1, _⟩ => rfl
  rw [val_main_v13_apply, val_main_v12_apply, val_main_v10_apply, val_main_v11_apply, val_main_cst_2_apply, h2, sq1]
  simp only [Ideal.hostUnary_rsqrt_def, Ideal.maximumf_def, Ideal.ofBits_def, ofBits_eps]

/-- The reference's normalised second argument at (b, n, k): the entry times its row's normalising factor. -/
theorem nrm1 (x : Arr3) (b : Fin 16) (n : Fin 4096) (k : Fin 256) :
    val_main_v15 (F := Ideal) x (ix3 b n k) = x (ix3 b n k) * Ideal.rsqrt (max (0 + dot x x b n) eps) := by
  have h6 : idx_main_v14 (ix3 b n k) = ix3 b n (⟨0, Nat.one_pos⟩ : Fin 1) := funext fun a => by
    match a with | ⟨0, _⟩ => rfl | ⟨1, _⟩ => rfl | ⟨2, _⟩ => rfl
  rw [val_main_v15_apply, val_main_v14_apply, h6, inv1]
  rfl

/-- The reference's result at row (b, n): the inner product of the two normalised rows, the host sum starting from 0. -/
theorem result_at (x y : Arr3) (b : Fin 16) (n : Fin 4096) :
    val_main_v17 (F := Ideal) x y (ix2 b n)
      = 0 + ∑ k : Fin 256, (x (ix3 b n k) * Ideal.rsqrt (max (0 + dot x x b n) eps))
          * (y (ix3 b n k) * Ideal.rsqrt (max (0 + dot y y b n) eps)) := by
  have hk : ∀ k : Fin 256, idx_main_v17 (ix2 b n) k = ix3 b n k := fun k => funext fun a => by
    match a with | ⟨0, _⟩ => rfl | ⟨1, _⟩ => rfl | ⟨2, _⟩ => rfl
  rw [val_main_v17_apply]
  simp only [hk, val_main_v16_apply, nrm0, nrm1, val_main_cst_3_apply, Ideal.ofBits_def, Ideal.ofBits_zero_f32, Ideal.mulf_def]

/-- ON ARRAYS OF REAL ENTRIES the reference's result is the specification's cosine, index by index: both rows' clamped
    squared norms are positive reals, the reciprocal square root is multiplicative on them, and the two factors leave
    the finite sum (the law). -/
theorem result_eq_cosine (x y : Arr3) (hx : ∀ i, ∃ r : ℝ, x i = (r : EReal)) (hy : ∀ i, ∃ r : ℝ, y i = (r : EReal)) :
    val_main_v17 (F := Ideal) x y = cosine x y := by
  funext i
  obtain ⟨b, n, rfl⟩ : ∃ (b : Fin 16) (n : Fin 4096), i = ix2 b n := ⟨i 0, i 1, eq_ix2 i⟩
  rw [result_at, cosine_ix2]
  choose α hα using hx
  choose β hβ using hy
  obtain ⟨e, he, hε⟩ := eps_pos
  unfold cosineAt dot
  rw [hε]
  simp only [hα, hβ]
  exact Cert.CosineLaw.normalize_then_dot (fun k => α (ix3 b n k)) (fun k => β (ix3 b n k)) e he

end Cert.ReferenceIdeal.RefValue

end
-- ==== Proof.Finite.lean ====
/-
  From the precondition to real entries.

  The precondition is the conjunction, over both arguments, of "every entry's absolute value is below +∞".  Read at the
  extended reals, an entry x with max x (-x) < +∞ is neither +∞ nor -∞ (nor the junk value, which is -∞ there), so it
  is a real number: every entry of both argument arrays is the coercion of a real.
-/
import proofs.«141535_j19894288515177_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

/-- The word the precondition compares against is +∞. -/
theorem inf_word : Ideal.ofBits .f32 0x7F800000#32 = (⊤ : EReal) := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One argument's conjunct: if the reduction by "and" of the comparisons |x| < +∞ over the whole array is true, every
    entry of the array is a real. -/
theorem real_of_all (x : FVec Ideal S16x4096x256 .f32)
    (e : Host.reduce IntOp.andi
        (cmpf .olt (Host.absf x) (broadcastInDim S16x4096x256 ![] bcast_S_S16x4096x256 (constant (F := Ideal) S_ .f32 0x7F800000#32)))
        (constantI S_ 1 1#1) reducesTo_S16x4096x256_S_d0_1_2 h_S_ ix0 = 1#1)
    (i : S16x4096x256.Idx) : ∃ r : ℝ, x i = (r : EReal) := by
  have hi := Host.reduce_andi_all _ _ _ _ _ e i
  have hi' : Ideal.cmp .olt (max (x i) (-(x i))) (Ideal.ofBits .f32 0x7F800000#32) = 1#1 := hi
  rw [inf_word] at hi'
  refine real_of_abs_lt_top (x i) ?_
  by_contra hn
  have h0 : Ideal.cmp .olt (max (x i) (-(x i))) ⊤ = 0#1 := by
    show BitVec.ofBool (decide (max (x i) (-(x i)) < ⊤)) = 0#1
    rw [decide_eq_false hn]
    rfl
  rw [h0] at hi'
  exact absurd hi' (by decide)

/-- THE PRECONDITION GIVES REAL ENTRIES: both argument arrays hold reals at every index. -/
theorem real_of_pre (x y : FVec Ideal S16x4096x256 .f32) (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨ha, hb⟩ := IntOp.andi_eq_one.mp h0
  exact ⟨fun i => real_of_all x ha i, fun i => real_of_all y hb i⟩

end Cert.Pre_finite_inputs.Finite

end
-- ==== Proof.lean ====
/-
  Row-wise cosine similarity: the kernel against its reference, over the extended reals.

  Both programs take two arrays a, b of shape [16, 4096, 256] and return an array of shape [16, 4096].  With
  sa = Σ_k a[b,n,k]², sb = Σ_k b[b,n,k]² and ε the binary32 number nearest 1e-12:
    * the kernel, on 16 row blocks of 256 rows, computes  (Σ_k a·b) · (max sa ε · max sb ε)^(-1/2);
    * the reference computes  Σ_k (a · (max sa ε)^(-1/2)) · (b · (max sb ε)^(-1/2)).
  The precondition makes every entry a real, so the clamped squared norms are positive reals, the reciprocal square
  root is multiplicative on them and the common factor leaves the finite sum: the two results agree index by index.

  The modules: CosineLaw (the law, over abstract finite index types), Cosine (the specification, one function of the
  two arrays), RefValue (the reference read index by index is the specification, on real entries), KernelValue (each
  grid point writes its block of the specification, and the blocks tile the result), Finite (the precondition gives
  real entries).  The three frames are the generated ones (the reference's is its run with the result dropped), and
  the idealization rewrote nothing, so that conjunct is trivial.
-/
import proofs.«141535_j19894288515177_2_alg».proof.Defs
import proofs.«141535_j19894288515177_2_alg».proof.Proof.Gen.Kernel
import proofs.«141535_j19894288515177_2_alg».proof.Proof.Gen.Kernel.Skeleton
import proofs.«141535_j19894288515177_2_alg».proof.Proof.Gen.Kernel.Launch
import proofs.«141535_j19894288515177_2_alg».proof.Proof.Gen.Kernel.Points
import proofs.«141535_j19894288515177_2_alg».proof.Proof.Gen.Kernel.Frame
import proofs.«141535_j19894288515177_2_alg».proof.Proof.Gen.KernelIdeal
import proofs.«141535_j19894288515177_2_alg».proof.Proof.Gen.KernelIdeal.Skeleton
import proofs.«141535_j19894288515177_2_alg».proof.Proof.Gen.KernelIdeal.Launch
import proofs.«141535_j19894288515177_2_alg».proof.Proof.Gen.KernelIdeal.Points
import proofs.«141535_j19894288515177_2_alg».proof.Proof.Gen.KernelIdeal.Frame
import proofs.«141535_j19894288515177_2_alg».proof.Proof.Gen.KernelIdeal.Value
import proofs.«141535_j19894288515177_2_alg».proof.Proof.Gen.ReferenceIdeal
import proofs.«141535_j19894288515177_2_alg».proof.Proof.Gen.ReferenceIdeal.Run
import proofs.«141535_j19894288515177_2_alg».proof.Proof.Gen.ReferenceIdeal.Read
import proofs.«141535_j19894288515177_2_alg».proof.Proof.Gen.Pre_finite_inputs
import proofs.«141535_j19894288515177_2_alg».proof.Proof.Cosine
import proofs.«141535_j19894288515177_2_alg».proof.Proof.KernelValue
import proofs.«141535_j19894288515177_2_alg».proof.Proof.RefValue
import proofs.«141535_j19894288515177_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both idealized programs end with the result array at the cosine of the
    arguments: the kernel block by block, the reference by the law on the real entries the precondition gives. -/
theorem algebraic : Cert.algebraic_KernelIdeal_ReferenceIdeal := by
  intro m ρ m' ρ' hpre hagree
  refine ⟨fun c => Cert.Cosine.cosine (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Pre_finite_inputs.Finite.real_of_pre _ _ (hpre c)
  rw [(hagree c).1, (hagree c).2]
  exact (Cert.ReferenceIdeal.Read.val_main_v17_eq _ _).trans (Cert.ReferenceIdeal.RefValue.result_eq_cosine _ _ hx hy)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
